-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_arg6 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S1024x1024 .f32) (main_arg3 : FVec F S1024x1024 .f32) (main_arg4 : FVec F S1x1024 .f32) (main_arg5 : FVec F S1x1024 .f32) (main_arg6 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16384x1024 : Shape := ⟨2, ![16384, 1024]⟩
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩
abbrev S512x1024 : Shape := ⟨2, ![512, 1024]⟩
abbrev S512x2048 : Shape := ⟨2, ![512, 2048]⟩

abbrev nBuf : Space → Nat
  | .hbm => 31
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x2048, .bf16⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .i1⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x2048_d1 : Shape.Concatenates [S1024x1024, S1024x1024] S1024x2048 1
  bcast_S_S1x1024 : S_.BroadcastsInDim S1x1024 (![] : Fin 0 → Fin S1x1024.rank)
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x2048_o0_0_S512x1024 : S512x2048.Slices ![0, 0] S512x1024
  slices_S512x2048_o0_1024_S512x1024 : S512x2048.Slices ![0, 1024] S512x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  shapeCasts_S1x1024_S1x1024 : S1x1024.ShapeCasts S1x1024
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .i1⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1x1024 : S_.BroadcastsInDim S1x1024 (![] : Fin 0 → Fin S1x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.CellSpec.lean ====
/-
  One step of a gated linear recurrence with exponential decay, as ONE function of its arrays.

  For a batch of rows `x` (the input) and `h` (the previous state), both [16384, 1024], two square weight
  matrices `Wa`, `Wx` [1024, 1024], two bias rows `ba`, `bx` and a decay-rate row `g` (all [1, 1024]), entry
  `(r, q)` of the new state is

      α · h(r, q) + sqrt(1 − α · α) · (i · x(r, q)),      α = exp(g(q) · a),
      a = σ(∑ₖ x(r, k) · Wa(q, k) + ba(q)),   i = σ(∑ₖ x(r, k) · Wx(q, k) + bx(q)),

  with σ the logistic function, everything read on the extended reals. The weights enter through their ROWS: unit
  `q` pairs row `r` of `x` with row `q` of the weight matrix (the product with the transposed matrix). The decay
  rate the programs use is `−(8 · softplus Λ)` of a parameter row `Λ`; both compute it before anything else and in
  the same words, so here it is one definition (`decayRow`) and the step takes the row as given.
-/
import Idealize.ShloMosaic.PureOps.Ideal
import Idealize.ShloMosaic.Lib.ValueIdx

noncomputable section

open scoped BigOperators

namespace Cert.CellSpec

open Idealize.ShloMosaic Idealize.ShloMosaic.ValueIdx

/-- Batch × features. -/
abbrev SB : Shape := ⟨2, ![16384, 1024]⟩
/-- A square weight matrix. -/
abbrev SW : Shape := ⟨2, ![1024, 1024]⟩
/-- One row of features. -/
abbrev SR : Shape := ⟨2, ![1, 1024]⟩
/-- A scalar. -/
abbrev S0 : Shape := ⟨0, ![]⟩

/-- The number one as both programs write it: the word of the single-precision `1.0`. -/
def one : EReal := Ideal.ofBits .f32 0x3F800000#32

/-- That word denotes the real number 1. -/
theorem one_eq : one = 1 := by
  unfold one
  simp [Ideal.ofBits, Ideal.ieee, -EReal.coe_mul]
  norm_num

/-- The logistic function written out with that word, `1 / (1 + e^(−z))`, is the logistic function: the division
    and the exponential are the extended reals' own, at the infinities too. -/
theorem logistic_expanded (z : EReal) : Ideal.div one (one + Ideal.exp (-z)) = Ideal.logistic z := by
  rw [one_eq]; rfl

/-- What unit `q` sees of row `r` before its gate: the row of `x` against ROW `q` of the weights, plus the bias. -/
def pre (x : FVec Ideal SB .f32) (W : FVec Ideal SW .f32) (b : FVec Ideal SR .f32) (r : Fin 16384) (q : Fin 1024) : EReal :=
  (∑ k : Fin 1024, x (ix2 r k) * W (ix2 q k)) + b (ix2 (0 : Fin 1) q)

/-- The new state from the input `x`, the old state `h`, the two gates `a` and `i` and the decay rate `g`:
    with `α = e^(g·a)`, the value `α·h + sqrt(1 − α·α)·(i·x)`. -/
def step (x h a i g : EReal) : EReal :=
  Ideal.exp (g * a) * h + Ideal.sqrt (one - Ideal.exp (g * a) * Ideal.exp (g * a)) * (i * x)

/-- THE NEW STATE, entry by entry, as one function of the seven arrays. -/
def newState (x h : FVec Ideal SB .f32) (Wa Wx : FVec Ideal SW .f32) (ba bx g : FVec Ideal SR .f32) : FVec Ideal SB .f32 :=
  fun j => step (x j) (h j) (Ideal.logistic (pre x Wa ba (j 0) (j 1))) (Ideal.logistic (pre x Wx bx (j 0) (j 1)))
    (g (ix2 (0 : Fin 1) (j 1)))

/-- The new state at `(r, q)`. -/
theorem newState_apply (x h : FVec Ideal SB .f32) (Wa Wx : FVec Ideal SW .f32) (ba bx g : FVec Ideal SR .f32)
    (r : Fin 16384) (q : Fin 1024) :
    newState x h Wa Wx ba bx g (ix2 r q)
      = step (x (ix2 r q)) (h (ix2 r q)) (Ideal.logistic (pre x Wa ba r q)) (Ideal.logistic (pre x Wx bx r q))
          (g (ix2 (0 : Fin 1) q)) := rfl

/-- The row of zeros the host's softplus compares against. -/
def zeroRow (hb : S0.BroadcastsInDim SR (![] : Fin 0 → Fin SR.rank)) : FVec Ideal SR .f32 :=
  broadcastInDim SR ![] hb (constant (F := Ideal) S0 .f32 0x00000000#32)

/-- THE DECAY-RATE ROW, `−(8 · softplus Λ)`, in the host's words: softplus is `max(Λ, 0) + log1p(e^(−|Λ − 0|))`,
    behind a guard `Λ − 0 ≠ Λ − 0` that selects `Λ + 0` instead (it tests for a value that is not a number, and no
    extended real is one; nothing here needs to know that, the two programs spell the same row). -/
def decayRow (hb : S0.BroadcastsInDim SR (![] : Fin 0 → Fin SR.rank)) (Λ : FVec Ideal SR .f32) : FVec Ideal SR .f32 :=
  Host.negf (mulf (broadcastInDim SR ![] hb (constant (F := Ideal) S0 .f32 0x41000000#32))
    (select (cmpf .une (subf Λ (zeroRow hb)) (subf Λ (zeroRow hb))) (addf Λ (zeroRow hb))
      (addf (maximumf Λ (zeroRow hb)) (Host.log1p (Host.exp (Host.negf (Host.absf (subf Λ (zeroRow hb)))))))))

end Cert.CellSpec

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.KernelPayload.lean ====
/-
  What the kernel's body stores at one entry of its block.

  On a block of 512 rows the body multiplies the block of `x` by ONE fused weight array `w` of 2048 columns and cuts
  the product into its left and right halves: column `q` of the left half feeds the decay gate, column `1024 + q`
  of the right half the input gate. The product goes into a zero accumulator, so at `(p, c)` it is the plain sum
  over `k` of `x(p, k) · w(k, c)`; the bias rows and the decay row are single rows stretched over the block's rows;
  a shape cast to the same shape and the change of float format on `x` are the identity. Everything else is entry by
  entry, and is the specification's `step` by unfolding.
-/
import proofs.«158968_j40939628265850_2_alg».proof.Proof.Gen.KernelIdeal.Skeleton
import proofs.«158968_j40939628265850_2_alg».proof.Proof.CellSpec
import proofs.«158968_j40939628265850_2_alg».proof.Proof.LibMatmulAt
import Idealize.ShloMosaic.Lib.Pipeline.Value
import Idealize.ShloMosaic.Lib.ValueIdx
import Idealize.ShloMosaic.Lib.ValueLayout

noncomputable section

open scoped BigOperators

namespace Cert.KernelIdeal.CellValue

open Cert.KernelIdeal Cert.KernelIdeal.Gen Idealize.ShloMosaic Idealize.ShloMosaic.ValueIdx Cert.CellSpec

/-- Column `q` of the LEFT half of the fused weights. -/
abbrev colA (q : Fin 1024) : Fin 2048 := ⟨q.val, by omega⟩
/-- Column `q` of the RIGHT half of the fused weights. -/
abbrev colX (q : Fin 1024) : Fin 2048 := ⟨1024 + q.val, by omega⟩

/-- The entry-by-entry part of the body: from the two halves `sa`, `sx` of the product, the stretched bias rows and
    decay row, the input and the old state, the stored value at an entry is the specification's `step` of the
    entries — each vector operation acts entry by entry and the logistic operation is the logistic function. -/
theorem pointwise_apply (x h sa sx ba bx g : FVec Ideal S512x1024 .f32) (j : S512x1024.Idx) :
    addf (mulf (exp (mulf g (logistic (addf sa ba)))) h)
        (mulf (sqrt (subf (broadcast S512x1024 (Scalar.ofBits (F := Ideal) .f32 0x3F800000#32))
            (mulf (exp (mulf g (logistic (addf sa ba)))) (exp (mulf g (logistic (addf sa ba)))))))
          (mulf (logistic (addf sx bx)) x)) j
      = step (x j) (h j) (Ideal.logistic (sa j + ba j)) (Ideal.logistic (sx j + bx j)) (g j) := rfl

/-- The fused product into the zero accumulator at `(p, c)`: the sum over `k` of `x(p, k) · w(k, c)`. -/
theorem fused_apply (x : FVec Ideal S512x1024 .f32) (w : FVec Ideal S1024x2048 .bf16) (p : Fin 512) (c : Fin 2048) :
    matmul dot_S512x1024_S1024x2048_S512x2048_1_0_0_1_n_n none (truncf .bf16 x bitsLt_bf16_f32)
        (shapeCast S1024x2048 w shapeCasts_S1024x2048_S1024x2048) (constant (F := Ideal) S512x2048 .f32 0x00000000#32) (ix2 p c)
      = ∑ k : Fin 1024, x (ix2 p k) * w (ix2 k c) := by
  rw [shapeCast_self]
  exact LibMatmulAt.matmul_zero_apply dot_S512x1024_S1024x2048_S512x2048_1_0_0_1_n_n rfl rfl rfl rfl rfl rfl none
    (truncf .bf16 x bitsLt_bf16_f32) w p c

/-- THE BODY'S STORE AT `(p, q)` of the block: the specification's `step` of the block's entries, the gates'
    arguments the two sums over `k` against columns `q` and `1024 + q` of the fused weights plus the bias entries. -/
theorem payload_apply (x h : FVec Ideal S512x1024 .f32) (w : FVec Ideal S1024x2048 .bf16)
    (ba bx g : FVec Ideal S1x1024 .f32) (p : Fin 512) (q : Fin 1024) :
    k0_pay1 (F := Ideal) x h w ba bx g (ix2 p q)
      = step (x (ix2 p q)) (h (ix2 p q))
          (Ideal.logistic ((∑ k : Fin 1024, x (ix2 p k) * w (ix2 k (colA q))) + ba (ix2 (0 : Fin 1) q)))
          (Ideal.logistic ((∑ k : Fin 1024, x (ix2 p k) * w (ix2 k (colX q))) + bx (ix2 (0 : Fin 1) q)))
          (g (ix2 (0 : Fin 1) q)) := by
  unfold k0_pay1
  refine (pointwise_apply _ _ _ _ _ _ _ _).trans ?_
  rw [slice2_axis1_eq, slice2_axis1_eq, fused_apply, fused_apply, shapeCast_self,
    broadcastTo_1b_ab_apply, broadcastTo_1b_ab_apply, broadcastTo_1b_ab_apply]
  simp only [Nat.zero_add]

end Cert.KernelIdeal.CellValue

end
-- ==== Proof.LibConcatCols.lean ====
/-
  Two matrices laid side by side, read at an entry.

  The concatenation along the column axis of a `[K, C₁]` and a `[K, C₂]` array into `[K, D]` reads, at `(k, d)`,
  the first array at `(k, d)` when `d` is one of its columns, and the second at `(k, d − C₁)` otherwise. Stated with
  the column of the piece given and the column of the whole tied to it by an equation, so that both fit whatever way
  a program numbers its columns.
-/
import Idealize.ShloMosaic.Lib.Pipeline.Value
import Idealize.ShloMosaic.Lib.ValueIdx

namespace Cert.LibConcatCols

open Idealize.ShloMosaic Idealize.ShloMosaic.ValueIdx

variable {α : Type}

/-- Column `d` of the whole is column `c` of the LEFT piece (`d = c`): the whole at `(k, d)` is the left piece at
    `(k, c)`. -/
theorem concat_cols_left {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₁) (d : Fin D)
    (hd : d.val = c.val) :
    concatenate ⟨2, ![K, D]⟩ 1 [⟨⟨2, ![K, C₁]⟩, x₁⟩, ⟨⟨2, ![K, C₂]⟩, x₂⟩] h (ix2 k d) = x₁ (ix2 k c) :=
  concatenate_pair_apply_left 1 x₁ x₂ h (ix2 k d) rfl (ix2 k c) fun b =>
    match b with
    | ⟨0, _⟩ => rfl
    | ⟨1, _⟩ => hd.symm

/-- Column `d` of the whole is column `c` of the RIGHT piece (`d = C₁ + c`): the whole at `(k, d)` is the right piece
    at `(k, c)`. -/
theorem concat_cols_right {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₂) (d : Fin D)
    (hd : d.val = C₁ + c.val) :
    concatenate ⟨2, ![K, D]⟩ 1 [⟨⟨2, ![K, C₁]⟩, x₁⟩, ⟨⟨2, ![K, C₂]⟩, x₂⟩] h (ix2 k d) = x₂ (ix2 k c) :=
  concatenate_pair_apply_right 1 x₁ x₂ h (ix2 k d) rfl rfl (ix2 k c)
    (fun b hb =>
      match b, hb with
      | ⟨0, _⟩, _ => rfl
      | ⟨1, _⟩, hb => absurd rfl hb)
    (by show c.val + C₁ = d.val; omega)

end Cert.LibConcatCols
-- ==== Proof.KernelHost.lean ====
/-
  The two arrays the host prepares for the kernel, as the kernel finds them.

  Before the launch the host transposes each weight matrix, narrows it (a change of float format: the identity on
  the extended reals) and lays the two side by side into one `[1024, 2048]` array; and it computes the decay-rate
  row. So the fused array at `(k, q)` is `Wa(q, k)` and at `(k, 1024 + q)` is `Wx(q, k)` — column `q` of either half
  is ROW `q` of its weight matrix —, and the decay row is the specification's `decayRow` of the parameter row.
-/
import proofs.«158968_j40939628265850_2_alg».proof.Proof.Gen.KernelIdeal.Frame
import proofs.«158968_j40939628265850_2_alg».proof.Proof.CellSpec
import proofs.«158968_j40939628265850_2_alg».proof.Proof.KernelPayload
import proofs.«158968_j40939628265850_2_alg».proof.Proof.LibConcatCols
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.CellValue

open Cert.KernelIdeal Cert.KernelIdeal.Gen Idealize.ShloMosaic Idealize.ShloMosaic.TcCoe
open Idealize.SL.Sem Idealize.ShloMosaic.ValueIdx Cert.CellSpec

/-- The fused weights: each matrix transposed and narrowed, the two laid side by side. -/
def fusedWeights (Wa Wx : FVec Ideal S1024x1024 .f32) : FVec Ideal S1024x2048 .bf16 :=
  concatenate S1024x2048 1
    [⟨S1024x1024, truncf .bf16 (transpose S1024x1024 [1, 0] Wa transposes_S1024x1024_S1024x1024_1_0) bitsLt_bf16_f32⟩,
     ⟨S1024x1024, truncf .bf16 (transpose S1024x1024 [1, 0] Wx transposes_S1024x1024_S1024x1024_1_0) bitsLt_bf16_f32⟩]
    concatenates_S1024x1024_S1024x1024_S1024x2048_d1

/-- Column `q` of the left half, at row `k`, is `Wa(q, k)`. -/
theorem fusedWeights_left (Wa Wx : FVec Ideal S1024x1024 .f32) (k q : Fin 1024) :
    fusedWeights Wa Wx (ix2 k (colA q)) = Wa (ix2 q k) := by
  unfold fusedWeights
  rw [LibConcatCols.concat_cols_left _ _ _ k q (colA q) rfl]
  exact transpose_ix2_apply Wa transposes_S1024x1024_S1024x1024_1_0 k q

/-- Column `q` of the right half, at row `k`, is `Wx(q, k)`. -/
theorem fusedWeights_right (Wa Wx : FVec Ideal S1024x1024 .f32) (k q : Fin 1024) :
    fusedWeights Wa Wx (ix2 k (colX q)) = Wx (ix2 q k) := by
  unfold fusedWeights
  rw [LibConcatCols.concat_cols_right _ _ _ k q (colX q) rfl]
  exact transpose_ix2_apply Wx transposes_S1024x1024_S1024x1024_1_0 k q

variable (m : (ℓ : Loc nD τ sig) → Buf (Elt Ideal) ℓ)

/-- When the region is entered the fused array holds the fused weights of the two weight arguments. -/
theorem V_fused (c : Dev nD) :
    (V m c main_v4 : S1024x2048.Idx → EReal)
      = fusedWeights (m ((c : Thread nD τ).loc main_arg2)) (m ((c : Thread nD τ).loc main_arg3)) := by
  dsimp only [Gen.V]
  simp only [Gen.hostOps0, Gen.hostOps0_1, Gen.hostOps0_2, List.flatten_cons, List.flatten_nil, List.append_nil,
    List.cons_append, List.nil_append]
  after_results
  rfl

/-- When the region is entered the decay row's buffer holds the specification's decay row of the parameter row. -/
theorem V_decay (c : Dev nD) :
    (V m c main_v8 : S1x1024.Idx → EReal) = decayRow bcast_S_S1x1024 (m ((c : Thread nD τ).loc main_arg6)) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.CellValue

end
-- ==== Proof.KernelArray.lean ====
/-
  From the blocks to the whole array: the kernel's result is the specification's new state.

  The grid has 32 points; point `t` works on rows `512 t … 512 t + 511` of the input, of the old state and of the
  result, and on the WHOLE of the fused weights, of the two bias rows and of the decay row. So entry `(p, q)` of
  what point `t` writes back is the new state's entry `(512 t + p, q)`: the sums over `k` run over a full row of `x`,
  which the block holds, and over a column of the fused weights, which is a row of a weight matrix. The 32 blocks
  tile the result (row `r` lies in the block of point `r / 512`), so the result array ends as the new state.
-/
import proofs.«158968_j40939628265850_2_alg».proof.Proof.Gen.KernelIdeal.Value
import proofs.«158968_j40939628265850_2_alg».proof.Proof.KernelHost
import Idealize.ShloMosaic.Lib.Pipeline.Value

noncomputable section

open scoped BigOperators

namespace Cert.KernelIdeal.CellValue

open Cert.KernelIdeal Cert.KernelIdeal.Gen Idealize.ShloMosaic Idealize.ShloMosaic.TcCoe
open Idealize.SL.Sem Idealize.ShloMosaic.ValueIdx Cert.CellSpec
open Idealize.ShloMosaic.Pipeline (Dat)

/-- One entry of a block against one entry of the whole arrays: if the block's row `p` is row `n · 512 + p` of `X`
    and of `H`, if the fused weights' columns are the weight matrices' rows, and the three rows are the given rows,
    then the body's store at `y` is the new state at the entry `i` that lies `n` blocks further down. -/
theorem block_entry (X H : FVec Ideal SB .f32) (Wa Wx : FVec Ideal SW .f32) (Ba Bx Gr : FVec Ideal SR .f32)
    (x h : FVec Ideal S512x1024 .f32) (w : FVec Ideal S1024x2048 .bf16) (ba bx g : FVec Ideal S1x1024 .f32)
    (n : ℕ) (y : S512x1024.Idx) (i : S16384x1024.Idx)
    (hi0 : (i 0).val = n * 512 + (y 0).val) (hi1 : (i 1).val = (y 1).val)
    (hx : ∀ (p : Fin 512) (k : Fin 1024) (r : Fin 16384), r.val = n * 512 + p.val → x (ix2 p k) = X (ix2 r k))
    (hh : ∀ (p : Fin 512) (k : Fin 1024) (r : Fin 16384), r.val = n * 512 + p.val → h (ix2 p k) = H (ix2 r k))
    (hwa : ∀ k q : Fin 1024, w (ix2 k (colA q)) = Wa (ix2 q k))
    (hwx : ∀ k q : Fin 1024, w (ix2 k (colX q)) = Wx (ix2 q k))
    (hba : ∀ q : Fin 1024, ba (ix2 (0 : Fin 1) q) = Ba (ix2 (0 : Fin 1) q))
    (hbx : ∀ q : Fin 1024, bx (ix2 (0 : Fin 1) q) = Bx (ix2 (0 : Fin 1) q))
    (hg : ∀ q : Fin 1024, g (ix2 (0 : Fin 1) q) = Gr (ix2 (0 : Fin 1) q)) :
    k0_pay1 (F := Ideal) x h w ba bx g y = newState X H Wa Wx Ba Bx Gr i := by
  obtain ⟨p, q, rfl⟩ : ∃ (p : Fin 512) (q : Fin 1024), y = ix2 p q := ⟨y 0, y 1, eq_ix2 y⟩
  obtain ⟨r, q', rfl⟩ : ∃ (r : Fin 16384) (q' : Fin 1024), i = ix2 r q' := ⟨i 0, i 1, eq_ix2 i⟩
  obtain rfl : q' = q := Fin.ext hi1
  have hr : r.val = n * 512 + p.val := hi0
  have hx' : ∀ k : Fin 1024, x (ix2 p k) = X (ix2 r k) := fun k => hx p k r hr
  rw [payload_apply, newState_apply, hx', hh p q' r hr, hba, hbx, hg]
  unfold pre
  simp only [hx', hwa, hwx]

variable (m : (ℓ : Loc nD τ sig) → Buf (Elt Ideal) ℓ) (ρ : Dev nD → PrngReg)

/-- THE RESULT: the specification's new state of the arrays the program was launched with, the decay row computed
    from the parameter row. -/
def result (c : Dev nD) : S16384x1024.Idx → EReal :=
  newState (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (decayRow bcast_S_S1x1024 (m ((c : Thread nD τ).loc main_arg6)))

theorem zero_offsets : (![0, 0] : Fin 2 → Nat) = fun _ => 0 := funext fun a => by fin_cases a <;> rfl

/-- Where each window's block sits at point `t`, decided over the 32 points: the input, the old state and the result
    move down one block of rows per point; the other four windows stay on their one whole block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the result. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero zero_offsets]
  simp only [View.ld_unit_zero (S := S512x1024) zero_offsets, View.ld_unit_zero (S := S1024x2048) zero_offsets,
    View.ld_unit_zero (S := S1x1024) zero_offsets]
  obtain ⟨e00, e01, e10, e11, e20, e21, e30, e31, e40, e41, e50, e51, e60, e61⟩ := block_indices t
  funext j
  show k0_pay1 (F := Ideal) (iblk m c 0 t) (iblk m c 1 t) (iblk m c 2 t) (iblk m c 3 t) (iblk m c 4 t) (iblk m c 5 t) j
      = result m c (((cfg0.win 6).blk t).view.emb j)
  refine block_entry (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (decayRow bcast_S_S1x1024 (m ((c : Thread nD τ).loc main_arg6)))
    (iblk m c 0 t) (iblk m c 1 t) (iblk m c 2 t) (iblk m c 3 t) (iblk m c 4 t) (iblk m c 5 t)
    t.val j (((cfg0.win 6).blk t).view.emb j) ?_ ?_ ?_ ?_ ?_ ?_ ?_ ?_ ?_
  · show win0_6.index t (0 : Fin 2) * 512 + 1 * (j 0).val = t.val * 512 + (j 0).val
    rw [e60]; omega
  · show win0_6.index t (1 : Fin 2) * 1024 + 1 * (j 1).val = (j 1).val
    rw [e61]; omega
  · intro p k r hr
    show V m c main_arg0 (((cfg0.win 0).blk t).view.emb (ix2 p k)) = m ((c : Thread nD τ).loc main_arg0) (ix2 r k)
    rw [V_main_arg0]
    refine congrArg _ (funext fun a => Fin.ext ?_)
    match a with
    | ⟨0, _⟩ => show win0_0.index t (0 : Fin 2) * 512 + 1 * p.val = r.val; rw [e00]; omega
    | ⟨1, _⟩ => show win0_0.index t (1 : Fin 2) * 1024 + 1 * k.val = k.val; rw [e01]; omega
  · intro p k r hr
    show V m c main_arg1 (((cfg0.win 1).blk t).view.emb (ix2 p k)) = m ((c : Thread nD τ).loc main_arg1) (ix2 r k)
    rw [V_main_arg1]
    refine congrArg _ (funext fun a => Fin.ext ?_)
    match a with
    | ⟨0, _⟩ => show win0_1.index t (0 : Fin 2) * 512 + 1 * p.val = r.val; rw [e10]; omega
    | ⟨1, _⟩ => show win0_1.index t (1 : Fin 2) * 1024 + 1 * k.val = k.val; rw [e11]; omega
  · intro k q
    show (V m c main_v4 : S1024x2048.Idx → EReal) (((cfg0.win 2).blk t).view.emb (ix2 k (colA q))) = _
    rw [V_fused, ← fusedWeights_left (m ((c : Thread nD τ).loc main_arg2)) (m ((c : Thread nD τ).loc main_arg3)) k q]
    refine congrArg _ (funext fun a => Fin.ext ?_)
    match a with
    | ⟨0, _⟩ => show win0_2.index t (0 : Fin 2) * 1024 + 1 * k.val = k.val; rw [e20]; omega
    | ⟨1, _⟩ => show win0_2.index t (1 : Fin 2) * 2048 + 1 * q.val = q.val; rw [e21]; omega
  · intro k q
    show (V m c main_v4 : S1024x2048.Idx → EReal) (((cfg0.win 2).blk t).view.emb (ix2 k (colX q))) = _
    rw [V_fused, ← fusedWeights_right (m ((c : Thread nD τ).loc main_arg2)) (m ((c : Thread nD τ).loc main_arg3)) k q]
    refine congrArg _ (funext fun a => Fin.ext ?_)
    match a with
    | ⟨0, _⟩ => show win0_2.index t (0 : Fin 2) * 1024 + 1 * k.val = k.val; rw [e20]; omega
    | ⟨1, _⟩ => show win0_2.index t (1 : Fin 2) * 2048 + 1 * (1024 + q.val) = 1024 + q.val; rw [e21]; omega
  · intro q
    show V m c main_arg4 (((cfg0.win 3).blk t).view.emb (ix2 (0 : Fin 1) q)) = m ((c : Thread nD τ).loc main_arg4) (ix2 (0 : Fin 1) q)
    rw [V_main_arg4]
    refine congrArg _ (funext fun a => Fin.ext ?_)
    match a with
    | ⟨0, _⟩ => show win0_3.index t (0 : Fin 2) * 1 + 1 * 0 = 0; rw [e30]
    | ⟨1, _⟩ => show win0_3.index t (1 : Fin 2) * 1024 + 1 * q.val = q.val; rw [e31]; omega
  · intro q
    show V m c main_arg5 (((cfg0.win 4).blk t).view.emb (ix2 (0 : Fin 1) q)) = m ((c : Thread nD τ).loc main_arg5) (ix2 (0 : Fin 1) q)
    rw [V_main_arg5]
    refine congrArg _ (funext fun a => Fin.ext ?_)
    match a with
    | ⟨0, _⟩ => show win0_4.index t (0 : Fin 2) * 1 + 1 * 0 = 0; rw [e40]
    | ⟨1, _⟩ => show win0_4.index t (1 : Fin 2) * 1024 + 1 * q.val = q.val; rw [e41]; omega
  · intro q
    show (V m c main_v8 : S1x1024.Idx → EReal) (((cfg0.win 5).blk t).view.emb (ix2 (0 : Fin 1) q)) = _
    rw [V_decay]
    refine congrArg _ (funext fun a => Fin.ext ?_)
    match a with
    | ⟨0, _⟩ => show win0_5.index t (0 : Fin 2) * 1 + 1 * 0 = 0; rw [e50]
    | ⟨1, _⟩ => show win0_5.index t (1 : Fin 2) * 1024 + 1 * q.val = q.val; rw [e51]; omega

/-- An index of the result is in point `t`'s block iff each coordinate is in the block's range on its axis. -/
theorem mem_block (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v9).slice (win0_6.rect t)).set ↔ _
  rw [View.set_slice_whole, Rect.mem_set_unit]
  exact Iff.rfl

/-- Every entry of the result lies in the block of the point that holds its row: row `r` in block `r / 512`. -/
theorem covered (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hlt : (i 0).val / 512 < cfg0.N := (show (i 0).val / 512 < 32 by omega).trans_eq N_0.symm
  obtain ⟨-, -, -, -, -, -, -, -, -, -, -, -, e60, e61⟩ := block_indices ⟨(i 0).val / 512, hlt⟩
  refine ⟨⟨(i 0).val / 512, hlt⟩, flush0_6 _, ?_⟩
  rw [mem_block]
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    rw [e60]
    show (i 0).val / 512 * 512 ≤ (i 0).val ∧ (i 0).val < (i 0).val / 512 * 512 + 512
    omega
  | ⟨1, _⟩ =>
    show win0_6.index ⟨(i 0).val / 512, hlt⟩ (1 : Fin 2) * 1024 ≤ (i 1).val
      ∧ (i 1).val < win0_6.index ⟨(i 0).val / 512, hlt⟩ (1 : Fin 2) * 1024 + 1024
    rw [e61]
    omega

/-- THE RESULT ARRAY after the run is the new state. -/
theorem final (c : Dev nD) : (dats m 0 c).arrAt 6 cfg0.N = result m c :=
  (dats m 0 c).arrAt_eq_of_cover 6 (result m c) (fun t _ => flushed_eq m c t) covered

/-- The kernel's run, read: every weakly fair execution ends with the result array at the new state of the launch
    arguments and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.CellValue

end
-- ==== Proof.ReferenceCell.lean ====
/-
  The reference's result is the specification's new state.

  The reference multiplies the whole batch by each weight matrix transposed, adds the bias row stretched over the
  batch, and spells each gate as `1 / (1 + e^(−z))`; the decay row is stretched over the batch and multiplied in.
  Read at `(r, q)`: a product with a transposed matrix pairs row `r` of `x` with ROW `q` of the weights, a stretched
  row reads its entry `q`, the spelt-out gate is the logistic function, and the rest is entry by entry.
-/
import proofs.«158968_j40939628265850_2_alg».proof.Proof.Gen.ReferenceIdeal.Read
import proofs.«158968_j40939628265850_2_alg».proof.Proof.CellSpec
import Idealize.ShloMosaic.Lib.ValueIdx

noncomputable section

open scoped BigOperators

namespace Cert.ReferenceIdeal.CellValue

open Cert.ReferenceIdeal Cert.ReferenceIdeal.Facts₀ Cert.ReferenceIdeal.Read Idealize.ShloMosaic Idealize.ShloMosaic.ValueIdx Cert.CellSpec

/-- Row `r` of `x` against row `q` of `Wa`, plus the bias: the reference's first pre-activation at `(r, q)`. -/
theorem preA_apply (x : FVec Ideal S16384x1024 .f32) (Wa : FVec Ideal S1024x1024 .f32) (ba : FVec Ideal S1x1024 .f32)
    (r : Fin 16384) (q : Fin 1024) :
    val_main_v3 (F := Ideal) x Wa ba (ix2 r q) = pre x Wa ba r q := by
  have el : ∀ k : Fin 1024, lidx_main_v1 (ix2 r q) k = ix2 r k := fun k =>
    funext fun a => Fin.ext (by match a with | ⟨0, _⟩ => rfl | ⟨1, _⟩ => rfl)
  have er : ∀ k : Fin 1024, idx_main_v0 (ridx_main_v1 (ix2 r q) k) = ix2 q k := fun k =>
    funext fun a => Fin.ext (by match a with | ⟨0, _⟩ => rfl | ⟨1, _⟩ => rfl)
  have eb : idx_main_v2 (ix2 r q) = ix2 (0 : Fin 1) q :=
    funext fun a => Fin.ext (by match a with | ⟨0, _⟩ => rfl | ⟨1, _⟩ => rfl)
  rw [val_main_v3_apply, val_main_v1_apply, val_main_v2_apply, eb]
  simp only [val_main_v0_apply, el, er]
  rfl

/-- The same for `Wx` and its bias: the reference's second pre-activation at `(r, q)`. -/
theorem preX_apply (x : FVec Ideal S16384x1024 .f32) (Wx : FVec Ideal S1024x1024 .f32) (bx : FVec Ideal S1x1024 .f32)
    (r : Fin 16384) (q : Fin 1024) :
    val_main_v13 (F := Ideal) x Wx bx (ix2 r q) = pre x Wx bx r q := by
  have el : ∀ k : Fin 1024, lidx_main_v11 (ix2 r q) k = ix2 r k := fun k =>
    funext fun a => Fin.ext (by match a with | ⟨0, _⟩ => rfl | ⟨1, _⟩ => rfl)
  have er : ∀ k : Fin 1024, idx_main_v10 (ridx_main_v11 (ix2 r q) k) = ix2 q k := fun k =>
    funext fun a => Fin.ext (by match a with | ⟨0, _⟩ => rfl | ⟨1, _⟩ => rfl)
  have eb : idx_main_v12 (ix2 r q) = ix2 (0 : Fin 1) q :=
    funext fun a => Fin.ext (by match a with | ⟨0, _⟩ => rfl | ⟨1, _⟩ => rfl)
  rw [val_main_v13_apply, val_main_v11_apply, val_main_v12_apply, eb]
  simp only [val_main_v10_apply, el, er]
  rfl

/-- The decay gate at `(r, q)`: the spelt-out `1 / (1 + e^(−z))` of the first pre-activation is its logistic. -/
theorem gateA_apply (x : FVec Ideal S16384x1024 .f32) (Wa : FVec Ideal S1024x1024 .f32) (ba : FVec Ideal S1x1024 .f32)
    (r : Fin 16384) (q : Fin 1024) :
    val_main_v9 (F := Ideal) x Wa ba (ix2 r q) = Ideal.logistic (pre x Wa ba r q) := by
  rw [val_main_v9_apply, val_main_v8_apply, val_main_cst_0_apply, val_main_v7_apply, val_main_v6_apply,
    val_main_cst_apply, val_main_v5_apply, val_main_v4_apply, preA_apply]
  exact logistic_expanded _

/-- The input gate at `(r, q)`, likewise. -/
theorem gateX_apply (x : FVec Ideal S16384x1024 .f32) (Wx : FVec Ideal S1024x1024 .f32) (bx : FVec Ideal S1x1024 .f32)
    (r : Fin 16384) (q : Fin 1024) :
    val_main_v19 (F := Ideal) x Wx bx (ix2 r q) = Ideal.logistic (pre x Wx bx r q) := by
  rw [val_main_v19_apply, val_main_v18_apply, val_main_cst_2_apply, val_main_v17_apply, val_main_v16_apply,
    val_main_cst_1_apply, val_main_v15_apply, val_main_v14_apply, preX_apply]
  exact logistic_expanded _

/-- The decay row stretched over the batch reads, at `(r, q)`, the row's entry `q`. -/
theorem decay_apply (Λ : FVec Ideal S1x1024 .f32) (r : Fin 16384) (q : Fin 1024) :
    val_main_v24 (F := Ideal) Λ (ix2 r q) = val_main_v23 (F := Ideal) Λ (ix2 (0 : Fin 1) q) := by
  rw [val_main_v24_apply]
  exact congrArg _ (funext fun a => Fin.ext (by match a with | ⟨0, _⟩ => rfl | ⟨1, _⟩ => rfl))

/-- The decay row the reference computes is the specification's. -/
theorem decayRow_eq (Λ : FVec Ideal S1x1024 .f32) :
    val_main_v23 (F := Ideal) Λ = decayRow bcast_S_S1x1024 Λ := rfl

/-- THE REFERENCE'S RESULT, as a function of the seven arguments, is the specification's new state with the decay
    row the reference computes. -/
theorem result_eq (x h : FVec Ideal S16384x1024 .f32) (Wa Wx : FVec Ideal S1024x1024 .f32)
    (ba bx Λ : FVec Ideal S1x1024 .f32) :
    val_main_v34 (F := Ideal) x h Wa Wx ba bx Λ = newState x h Wa Wx ba bx (decayRow bcast_S_S1x1024 Λ) := by
  funext j
  obtain ⟨r, q, rfl⟩ : ∃ (r : Fin 16384) (q : Fin 1024), j = ix2 r q := ⟨j 0, j 1, eq_ix2 j⟩
  rw [newState_apply, val_main_v34_apply, val_main_v27_apply, val_main_v33_apply, val_main_v31_apply,
    val_main_v30_apply, val_main_v29_apply, val_main_cst_4_apply, val_main_v28_apply, val_main_v26_apply,
    val_main_v25_apply, val_main_v32_apply, gateA_apply, gateX_apply, decay_apply, decayRow_eq]
  rfl

end Cert.ReferenceIdeal.CellValue

end
-- ==== Proof.lean ====
/-
  The gated linear recurrence cell: the kernel against its reference, on the extended reals.

  Both programs compute, for every row `r` of the batch and every unit `q`,

      α · h(r, q) + sqrt(1 − α · α) · (i · x(r, q)),   α = exp(g(q) · a),
      a = σ(∑ₖ x(r, k) · Wa(q, k) + ba(q)),   i = σ(∑ₖ x(r, k) · Wx(q, k) + bx(q)),   g = −(8 · softplus Λ)

  (the specification, `Cert.CellSpec.newState`). The reference does it on the whole batch with two products against
  the transposed weight matrices and the logistic function spelt `1 / (1 + e^(−z))`. The kernel does it 512 rows at
  a time with ONE product against the two transposed matrices laid side by side, cut into its halves, and the
  logistic operation. No law beyond the definitions joins them: the sums are the same sums in the same order, the
  spelt-out logistic IS the logistic function on every extended real, and the decay row is computed by the same
  host operations in both. So the finiteness of the inputs is never used. The idealization rewrote nothing, and the
  three frames are the generated runs.
-/
import proofs.«158968_j40939628265850_2_alg».proof.Defs
import proofs.«158968_j40939628265850_2_alg».proof.Proof.Gen.Kernel
import proofs.«158968_j40939628265850_2_alg».proof.Proof.Gen.Kernel.Skeleton
import proofs.«158968_j40939628265850_2_alg».proof.Proof.Gen.Kernel.Launch
import proofs.«158968_j40939628265850_2_alg».proof.Proof.Gen.Kernel.Points
import proofs.«158968_j40939628265850_2_alg».proof.Proof.Gen.Kernel.Frame
import proofs.«158968_j40939628265850_2_alg».proof.Proof.Gen.KernelIdeal
import proofs.«158968_j40939628265850_2_alg».proof.Proof.Gen.KernelIdeal.Skeleton
import proofs.«158968_j40939628265850_2_alg».proof.Proof.Gen.KernelIdeal.Launch
import proofs.«158968_j40939628265850_2_alg».proof.Proof.Gen.KernelIdeal.Points
import proofs.«158968_j40939628265850_2_alg».proof.Proof.Gen.KernelIdeal.Frame
import proofs.«158968_j40939628265850_2_alg».proof.Proof.Gen.ReferenceIdeal
import proofs.«158968_j40939628265850_2_alg».proof.Proof.Gen.KernelIdeal.Value
import proofs.«158968_j40939628265850_2_alg».proof.Proof.Gen.ReferenceIdeal.Run
import proofs.«158968_j40939628265850_2_alg».proof.Proof.Gen.ReferenceIdeal.Read
import proofs.«158968_j40939628265850_2_alg».proof.Proof.Gen.Pre_finite_inputs
import proofs.«158968_j40939628265850_2_alg».proof.Proof.CellSpec
import proofs.«158968_j40939628265850_2_alg».proof.Proof.KernelArray
import proofs.«158968_j40939628265850_2_alg».proof.Proof.ReferenceCell
import Idealize.ShloMosaic.Adequacy
import Idealize.ShloMosaic.Init

noncomputable section

namespace Cert.Proof

open Idealize.ShloMosaic Idealize.ShloMosaic.TcCoe Idealize.SL.Sem

/-- The kernel as printed runs and leaves its arguments as they were: its generated run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the specification's new state of the arguments: the kernel's block by block
    (`CellValue.run`), the reference's by reading its operations at an entry (`CellValue.result_eq`); the arguments
    agree, and the two decay rows are one row. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.CellValue.result_eq,
    (hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
